-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_

variable [Facts]

def fn {F : FTy → Type} [FloatOps F] (main_arg0 : FVec F S1024x512 .f32) (main_arg1 : IVec S1024 32) (main_arg2 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  main_v8
-- ==== Kernel.lean ====
abbrev S1024x512 : Shape := ⟨2, ![1024, 512]⟩
abbrev S1024 : Shape := ⟨1, ![1024]⟩
abbrev S100000x512 : Shape := ⟨2, ![100000, 512]⟩
abbrev S1024x1 : Shape := ⟨2, ![1024, 1]⟩
abbrev S1024x100000 : Shape := ⟨2, ![1024, 100000]⟩
abbrev S896x512 : Shape := ⟨2, ![896, 512]⟩
abbrev S1024x896 : Shape := ⟨2, ![1024, 896]⟩
abbrev S896 : Shape := ⟨1, ![896]⟩
abbrev S896x1 : Shape := ⟨2, ![896, 1]⟩

abbrev nBuf : Space → Nat
  | .hbm => 5
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x1, .i32⟩
  | .hbm, ⟨4, _⟩ => ⟨S1024x100000, .f32⟩
  | .local _ .vmem, ⟨0, _⟩ => ⟨S1024x512, .f32⟩
  | .local _ .vmem, ⟨1, _⟩ => ⟨S896x512, .f32⟩
  | .local _ .vmem, ⟨2, _⟩ => ⟨S896x512, .f32⟩
  | .local _ .vmem, ⟨3, _⟩ => ⟨S1024x1, .i32⟩
  | .local _ .vmem, ⟨4, _⟩ => ⟨S1024x896, .f32⟩
  | .local _ .vmem, ⟨5, _⟩ => ⟨S1024x896, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![112], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S896x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1024x1 : S1024.ShapeCasts S1024x1
  inb_S1024x512_S1024x512_0_0 : ∀ a, (![0, 0] : Fin 2 → Nat) a + S1024x512.size a ≤ S1024x512.size a
  h_S1024x512 : 0 < S1024x512.numel
  inb_S896x512_S896x512_0_0 : ∀ a, (![0, 0] : Fin 2 → Nat) a + S896x512.size a ≤ S896x512.size a
  h_S896x512 : 0 < S896x512.numel
  reduces_S1024x512_S1024 : S1024x512.Reduces [1] S1024
  broadcasts_S1024x1_S1024x512 : S1024x1.Broadcasts S1024x512
  reduces_S896x512_S896 : S896x512.Reduces [1] S896
  shapeCasts_S896_S896x1 : S896.ShapeCasts S896x1
  broadcasts_S896x1_S896x512 : S896x1.Broadcasts S896x512
  bitsLt_bf16_f32 : FTy.bits .bf16 < FTy.bits .f32
  iota_S1024x896_d1_w32 : S1024x896.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x896 : S1024x1.Broadcasts S1024x896
  inb_S1024x896_S1024x896_0_0 : ∀ a, (![0, 0] : Fin 2 → Nat) a + S1024x896.size a ≤ S1024x896.size a
  h_S1024x896 : 0 < S1024x896.numel
  dot_S1024x512_S896x512_S1024x896_1_1_0_0_n_n_wf : DotDims.WF S1024x512 S896x512 S1024x896 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S896x512.size a < S100000x512.size a
  hwx0_1 : ∀ i : grid0.Coords, EltTy.bits .f32 = 32 ∨ (Rect.unit (s := S100000x512) (fun a => cc0_transform_1 i a * S896x512.size a) (fun a => (Pipeline.Clip.of (cc0_transform_1 i a) (S896x512.size a) (S100000x512.size a)).extent (S896x512.size a)) fun a => Pipeline.Clip.inb (Pipeline.Clip.ok_of (hstart0_1 i a))).WholeWords (EltTy.packing .f32)
  hwxs0_1 : ∀ i : grid0.Coords, EltTy.bits .f32 = 32 ∨ (Rect.unit (s := S896x512) (fun _ => 0) (fun a => (Pipeline.Clip.of (cc0_transform_1 i a) (S896x512.size a) (S100000x512.size a)).extent (S896x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .i32 = 32 ∨ (Rect.block (s := S1024x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x896.size a < S1024x100000.size a
  hwx0_3 : ∀ i : grid0.Coords, EltTy.bits .f32 = 32 ∨ (Rect.unit (s := S1024x100000) (fun a => cc0_transform_3 i a * S1024x896.size a) (fun a => (Pipeline.Clip.of (cc0_transform_3 i a) (S1024x896.size a) (S1024x100000.size a)).extent (S1024x896.size a)) fun a => Pipeline.Clip.inb (Pipeline.Clip.ok_of (hstart0_3 i a))).WholeWords (EltTy.packing .f32)
  hwxs0_3 : ∀ i : grid0.Coords, EltTy.bits .f32 = 32 ∨ (Rect.unit (s := S1024x896) (fun _ => 0) (fun a => (Pipeline.Clip.of (cc0_transform_3 i a) (S1024x896.size a) (S1024x100000.size a)).extent (S1024x896.size a)) fun a => (Nat.zero_add _).trans_le (Pipeline.Clip.extent_le (Pipeline.Clip.ok_of (hstart0_3 i a)))).WholeWords (EltTy.packing .f32)

variable [Facts₀]

def dot_S1024x512_S896x512_S1024x896_1_1_0_0_n_n : DotDims S1024x512 S896x512 S1024x896 where
  lhsContracting := [1]
  rhsContracting := [1]
  lhsNonContracting := [0]
  rhsNonContracting := [0]
  lhsBatch := []
  rhsBatch := []
  wf := dot_S1024x512_S896x512_S1024x896_1_1_0_0_n_n_wf

abbrev win0_0 : Pipeline.Window sig grid0 :=
  Pipeline.Window.ofSpec (Memref.whole main_arg0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S896x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v1) S1024x896.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S1024x100000 : Shape := ⟨2, ![1024, 100000]⟩
abbrev S1x100000 : Shape := ⟨2, ![1, 100000]⟩

abbrev nBuf : Space → Nat
  | .hbm => 61
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S1024x100000, .f32⟩
  | .hbm, ⟨24, _⟩ => ⟨S1024x100000, .f32⟩
  | .hbm, ⟨25, _⟩ => ⟨S_, .f32⟩
  | .hbm, ⟨26, _⟩ => ⟨S1024x100000, .f32⟩
  | .hbm, ⟨27, _⟩ => ⟨S1024x100000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S_, .f32⟩
  | .hbm, ⟨34, _⟩ => ⟨S1024x100000, .f32⟩
  | .hbm, ⟨35, _⟩ => ⟨S1024x100000, .f32⟩
  | .hbm, ⟨36, _⟩ => ⟨S1024x100000, .f32⟩
  | .hbm, ⟨37, _⟩ => ⟨S_, .f32⟩
  | .hbm, ⟨38, _⟩ => ⟨S1024x100000, .f32⟩
  | .hbm, ⟨39, _⟩ => ⟨S1024x100000, .f32⟩
  | .hbm, ⟨40, _⟩ => ⟨S_, .f32⟩
  | .hbm, ⟨41, _⟩ => ⟨S1024x100000, .f32⟩
  | .hbm, ⟨42, _⟩ => ⟨S1024x100000, .f32⟩
  | .hbm, ⟨43, _⟩ => ⟨S1024x100000, .f32⟩
  | .hbm, ⟨44, _⟩ => ⟨S_, .f32⟩
  | .hbm, ⟨45, _⟩ => ⟨S1024x100000, .f32⟩
  | .hbm, ⟨46, _⟩ => ⟨S1024x100000, .i1⟩
  | .hbm, ⟨47, _⟩ => ⟨S_, .f32⟩
  | .hbm, ⟨48, _⟩ => ⟨S1024x100000, .f32⟩
  | .hbm, ⟨49, _⟩ => ⟨S1024x100000, .f32⟩
  | .hbm, ⟨50, _⟩ => ⟨S1024x100000, .f32⟩
  | .hbm, ⟨51, _⟩ => ⟨S100000, .i32⟩
  | .hbm, ⟨52, _⟩ => ⟨S1x100000, .i32⟩
  | .hbm, ⟨53, _⟩ => ⟨S1024x1, .i32⟩
  | .hbm, ⟨54, _⟩ => ⟨S1024x100000, .i32⟩
  | .hbm, ⟨55, _⟩ => ⟨S1024x100000, .i32⟩
  | .hbm, ⟨56, _⟩ => ⟨S1024x100000, .i1⟩
  | .hbm, ⟨57, _⟩ => ⟨S1024x100000, .f32⟩
  | .hbm, ⟨58, _⟩ => ⟨S_, .f32⟩
  | .hbm, ⟨59, _⟩ => ⟨S1024x100000, .f32⟩
  | .hbm, ⟨60, _⟩ => ⟨S1024x100000, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S1024x100000 : S_.BroadcastsInDim S1024x100000 (![] : Fin 0 → Fin S1024x100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  bcast_S1024x1_S1024x100000_0_1 : S1024x1.BroadcastsInDim S1024x100000 (![0, 1] : Fin 2 → Fin S1024x100000.rank)
  dot_S1024x512_S100000x512_S1024x100000_1_1_0_0_n_n_wf : DotDims.WF S1024x512 S100000x512 S1024x100000 [1] [1] [0] [0] [] []

variable [Facts₀]

def dot_S1024x512_S100000x512_S1024x100000_1_1_0_0_n_n : DotDims S1024x512 S100000x512 S1024x100000 where
  lhsContracting := [1]
  rhsContracting := [1]
  lhsNonContracting := [0]
  rhsNonContracting := [0]
  lhsBatch := []
  rhsBatch := []
  wf := dot_S1024x512_S100000x512_S1024x100000_1_1_0_0_n_n_wf

class Facts : Prop extends Facts₀ where

variable [Facts]
-- ==== Proof.KernelBody.lean ====
/-
  The frame of the program `Kernel`: a cosine classifier with an additive angular margin, one grid point per
  block of 896 classes. At each point the body loads the whole batch block (1024 x 512), the point's block of
  896 weight rows, the labels (1024 x 1) and — a dead load — the result block, and stores ONE whole 1024 x 896
  block of scaled logits. The last block of weight rows overhangs the weight array (100000 = 111 * 896 + 544): the
  rows past the array's end hold words nothing names, the body computes on them all the same (every operation is
  total), and the write-back keeps only the 544 columns inside the result array.

  This module states what the body does on ANY contents of its four buffers (`sound_kernel`: the inputs' buffers are
  left as found, the result's buffer ends at `out3` of them), and from it the frame: with proof data that
  constrain nothing of what the body leaves (a relation that always holds), the body obligation is `sound_kernel`
  with the contents forgotten, and the launch theorem gives that every weakly fair execution terminates without a
  fault and leaves the argument arrays as they were — the two staged ones because an input array is never written
  back, the label vector because no window stages it.
-/
import proofs.«171837_j70866960384684_1_alg».proof.Proof.Gen.Kernel.Frame
import proofs.«171837_j70866960384684_1_alg».proof.Proof.Gen.Kernel.Skeleton
import Idealize.ShloMosaic.Lib.Pipeline.Frame
import Idealize.ShloMosaic.Lib.Pipeline.Value
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The block of scaled logits the body stores at grid point `i`, from the contents of the batch buffer `x0`, the
    weight-rows buffer `x1` and the label buffer `x2`: the cosine block (the normalised rows' inner products), the
    margin branch of it, the column numbers of the block (`896 * i` plus the lane index), and the select of the
    margin branch where the column is the row's label, all times the scale. -/
def out3 (i : grid0.Coords) (x0 : Vec F S1024x512 .f32) (x1 : Vec F S896x512 .f32) (x2 : Vec F S1024x1 .i32) : Vec F S1024x896 .f32 :=
  k0_pay1 (k0_pay2 x0 x1) (k0_pay3 x0 x1) (iota .tc S1024x896 32 [1] iota_S1024x896_d1_w32) (k0_pay4 i) x2

theorem zeros2 : (![0, 0] : Fin 2 → Nat) = fun _ => 0 := funext fun a => by fin_cases a <;> rfl

set_option maxHeartbeats 1000000 in
/-- The body on whole buffers at ANY contents `x0`, `x1`, `x2` (and anything in the result's): it runs without a
    fault, leaves the three input buffers as they were and the result's buffer at `out3 i x0 x1 x2`. Every load and
    the one store go through the rectangle that is the whole buffer, so a load reads the contents and the store
    leaves its payload. -/
theorem sound_kernel (c : Dev nD) (E : Set ℕ) (i : grid0.Coords)
    (arg1 : Memref sig .tc .vmem S1024x512 .f32) (harg1 : arg1.IsWhole) (arg2 : Memref sig .tc .vmem S896x512 .f32) (harg2 : arg2.IsWhole)
    (arg3 : Memref sig .tc .vmem S1024x1 .i32) (harg3 : arg3.IsWhole) (arg4 : Memref sig .tc .vmem S1024x896 .f32) (harg4 : arg4.IsWhole)
    (x0 : Vec F S1024x512 .f32) (x1 : Vec F S896x512 .f32) (x2 : Vec F S1024x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 i x0 x1 x2)) -∗ K ⟨⟩))
      ⊢ wp frame (wpE (defs₀ (F := F)) Variants.none c none) E (cc0__arcface_kernel i arg1 harg1 arg2 harg2 arg3 harg3 arg4 harg4) K := by
  simp only [cc0__arcface_kernel_eq_skeleton]; unfold cc0__arcface_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  rw [View.read_writes_eq_canon _ _ _ (fun y => ⟨_, List.mem_singleton_self _, View.mem_set_unit_zero zeros2 inb_S1024x896_S1024x896_0_0 y⟩),
    View.canon_unit_zero zeros2]
  simp only [View.readAt_eq_ld, View.ld_unit_zero (S := S1024x512) zeros2, View.ld_unit_zero (S := S896x512) zeros2,
    View.ld_unit_zero (S := S1024x1) zeros2]
  rfl

/-! ## The proof data of the frame, and the body obligation -/

/-- The proof data on core `c`, relational: the arrays as the region finds them; of what the body leaves in a
    buffer nothing is asked (the frame reads no buffer's contents); the invariant the untouched rest; nothing owed;
    full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, whatever the four current buffers hold, the body runs and hands them back (`sound_kernel`);
    the invariant and what the core owes pass through unread. -/
theorem body_obligation (c : Dev nD) : (rdat (F := F) m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl]
  show _ ⊢ wp frame (wpE (defs₀ (F := F)) Variants.none c none) Set.univ (bodyAt0 t) _
  unfold bodyAt0
  iintro ⟨HΦ, Ho, H0, H1, H2, H3⟩
  iapply (sound_kernel c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  iexists (out3 (grid0.coords t) (Y 0) (Y 1) (Y 2)); isplitr; · ipureintro; trivial
  iexact H3

/-! ## The run and the frame -/

set_option backward.isDefEq.respectTransparency.types false in
/-- From any memory with zero counters every weakly fair execution of @main terminates, every array of the
    pipeline at some contents the write-backs may have left and every other buffer as the region found it. -/
theorem run_main : θ_run defs (onTc (τ := τ) (main (F := F))) (s₀ m ρ) (RDat.FramePost cfg0 (rdat m) (V m)) :=
  RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The frame of `Kernel` at any float instance: the run above read at the three argument arrays — the batch and
    the weights are inputs of the pipeline, never written back; the label vector bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans (V_main_arg0 m c),
      ((h c).2 main_arg1 (Pipeline.mem_restRefs_of main_arg1 (by decide) (by decide))).trans (V_main_arg1 m c),
      h1.trans (V_main_arg2 m c)⟩) (run_main m ρ)

end Cert.Kernel.Body

end
-- ==== Proof.KernelIdealBody.lean ====
/-
  The frame of the program `KernelIdeal`: a cosine classifier with an additive angular margin, one grid point per
  block of 896 classes. At each point the body loads the whole batch block (1024 x 512), the point's block of
  896 weight rows, the labels (1024 x 1) and — a dead load — the result block, and stores ONE whole 1024 x 896
  block of scaled logits. The last block of weight rows overhangs the weight array (100000 = 111 * 896 + 544): the
  rows past the array's end hold words nothing names, the body computes on them all the same (every operation is
  total), and the write-back keeps only the 544 columns inside the result array.

  This module states what the body does on ANY contents of its four buffers (`sound_kernel`: the inputs' buffers are
  left as found, the result's buffer ends at `out3` of them), and from it the frame: with proof data that
  constrain nothing of what the body leaves (a relation that always holds), the body obligation is `sound_kernel`
  with the contents forgotten, and the launch theorem gives that every weakly fair execution terminates without a
  fault and leaves the argument arrays as they were — the two staged ones because an input array is never written
  back, the label vector because no window stages it.
-/
import proofs.«171837_j70866960384684_1_alg».proof.Proof.Gen.KernelIdeal.Frame
import proofs.«171837_j70866960384684_1_alg».proof.Proof.Gen.KernelIdeal.Skeleton
import Idealize.ShloMosaic.Lib.Pipeline.Frame
import Idealize.ShloMosaic.Lib.Pipeline.Value
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The block of scaled logits the body stores at grid point `i`, from the contents of the batch buffer `x0`, the
    weight-rows buffer `x1` and the label buffer `x2`: the cosine block (the normalised rows' inner products), the
    margin branch of it, the column numbers of the block (`896 * i` plus the lane index), and the select of the
    margin branch where the column is the row's label, all times the scale. -/
def out3 (i : grid0.Coords) (x0 : Vec F S1024x512 .f32) (x1 : Vec F S896x512 .f32) (x2 : Vec F S1024x1 .i32) : Vec F S1024x896 .f32 :=
  k0_pay1 (k0_pay2 x0 x1) (k0_pay3 x0 x1) (iota .tc S1024x896 32 [1] iota_S1024x896_d1_w32) (k0_pay4 i) x2

theorem zeros2 : (![0, 0] : Fin 2 → Nat) = fun _ => 0 := funext fun a => by fin_cases a <;> rfl

set_option maxHeartbeats 1000000 in
/-- The body on whole buffers at ANY contents `x0`, `x1`, `x2` (and anything in the result's): it runs without a
    fault, leaves the three input buffers as they were and the result's buffer at `out3 i x0 x1 x2`. Every load and
    the one store go through the rectangle that is the whole buffer, so a load reads the contents and the store
    leaves its payload. -/
theorem sound_kernel (c : Dev nD) (E : Set ℕ) (i : grid0.Coords)
    (arg1 : Memref sig .tc .vmem S1024x512 .f32) (harg1 : arg1.IsWhole) (arg2 : Memref sig .tc .vmem S896x512 .f32) (harg2 : arg2.IsWhole)
    (arg3 : Memref sig .tc .vmem S1024x1 .i32) (harg3 : arg3.IsWhole) (arg4 : Memref sig .tc .vmem S1024x896 .f32) (harg4 : arg4.IsWhole)
    (x0 : Vec F S1024x512 .f32) (x1 : Vec F S896x512 .f32) (x2 : Vec F S1024x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 i x0 x1 x2)) -∗ K ⟨⟩))
      ⊢ wp frame (wpE (defs₀ (F := F)) Variants.none c none) E (cc0__arcface_kernel i arg1 harg1 arg2 harg2 arg3 harg3 arg4 harg4) K := by
  simp only [cc0__arcface_kernel_eq_skeleton]; unfold cc0__arcface_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  rw [View.read_writes_eq_canon _ _ _ (fun y => ⟨_, List.mem_singleton_self _, View.mem_set_unit_zero zeros2 inb_S1024x896_S1024x896_0_0 y⟩),
    View.canon_unit_zero zeros2]
  simp only [View.readAt_eq_ld, View.ld_unit_zero (S := S1024x512) zeros2, View.ld_unit_zero (S := S896x512) zeros2,
    View.ld_unit_zero (S := S1024x1) zeros2]
  rfl

/-! ## The proof data of the frame, and the body obligation -/

/-- The proof data on core `c`, relational: the arrays as the region finds them; of what the body leaves in a
    buffer nothing is asked (the frame reads no buffer's contents); the invariant the untouched rest; nothing owed;
    full shares. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, whatever the four current buffers hold, the body runs and hands them back (`sound_kernel`);
    the invariant and what the core owes pass through unread. -/
theorem body_obligation (c : Dev nD) : (rdat (F := F) m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl]
  show _ ⊢ wp frame (wpE (defs₀ (F := F)) Variants.none c none) Set.univ (bodyAt0 t) _
  unfold bodyAt0
  iintro ⟨HΦ, Ho, H0, H1, H2, H3⟩
  iapply (sound_kernel c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  iexists (out3 (grid0.coords t) (Y 0) (Y 1) (Y 2)); isplitr; · ipureintro; trivial
  iexact H3

/-! ## The run and the frame -/

set_option backward.isDefEq.respectTransparency.types false in
/-- From any memory with zero counters every weakly fair execution of @main terminates, every array of the
    pipeline at some contents the write-backs may have left and every other buffer as the region found it. -/
theorem run_main : θ_run defs (onTc (τ := τ) (main (F := F))) (s₀ m ρ) (RDat.FramePost cfg0 (rdat m) (V m)) :=
  RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- The frame of `KernelIdeal` at any float instance: the run above read at the three argument arrays — the batch and
    the weights are inputs of the pipeline, never written back; the label vector bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    have h0 := (h c).1 0
    have h1 := (h c).1 1
    rw [(rdat m c).ArrAt_in 0 rfl] at h0
    rw [(rdat m c).ArrAt_in 1 rfl] at h1
    exact ⟨h0.trans (V_main_arg0 m c),
      ((h c).2 main_arg1 (Pipeline.mem_restRefs_of main_arg1 (by decide) (by decide))).trans (V_main_arg1 m c),
      h1.trans (V_main_arg2 m c)⟩) (run_main m ρ)

end Cert.KernelIdeal.Body

end
-- ==== Proof.Spec.lean ====
/-
  The scaled logit of one (sample, class) pair, as a function of the sample's row, the class's weight row, the
  sample's label and the class's number — on the extended reals.

  * `nrm r`     the Euclidean norm of a row of 512 entries, clamped from below by the small constant the
                programs print: max(sqrt(∑ r_k²), ε).
  * `cosv x w`  the inner product of the two normalised rows: ∑_k (x_k / nrm x) · (w_k / nrm w).
  * `margin cs` the cosine with the angular margin added: cs·cos m − sqrt(clip(1 − cs², 0, 1))·sin m where
                cs exceeds the threshold cos(π − m), and cs − s·sin m·m elsewhere (the constants as printed).
  * `logit cs hit`  the margin form where the class is the sample's label (`hit`), the plain cosine elsewhere,
                times the scale 30.
  Both programs compute exactly this at every entry; no law of arithmetic is needed to join them, only that
  a sum started from the zero word is the sum.
-/
import Idealize.ShloMosaic.PureOps.Ideal.Laws
import Idealize.ShloMosaic.Lib.ValueIdx

noncomputable section

open scoped BigOperators

namespace Cert.Spec

open Idealize.ShloMosaic

/-- The extended real a 32-bit float word denotes. -/
abbrev f32 (b : BitVec 32) : EReal := Ideal.ofBits .f32 b

/-- A row's norm, clamped from below. -/
def nrm (r : Fin 512 → EReal) : EReal := max (Ideal.sqrt (∑ k, r k * r k)) (f32 0x2B8CBCCC#32)

/-- The cosine of two rows: the inner product of the rows divided by their clamped norms. -/
def cosv (x w : Fin 512 → EReal) : EReal := ∑ k, Ideal.div (x k) (nrm x) * Ideal.div (w k) (nrm w)

/-- The cosine with the margin added. -/
def margin (cs : EReal) : EReal :=
  Scalar.select (Ideal.cmp .ogt cs (f32 0xBF60A940#32))
    (cs * f32 0x3F60A940#32
      - Ideal.sqrt (min (f32 0x3F800000#32) (max (f32 0x00000000#32) (f32 0x3F800000#32 - cs * cs))) * f32 0x3EF57744#32)
    (cs - f32 0x40E61FCF#32)

/-- The scaled logit: the margin form at the label's class, the cosine elsewhere, times the scale. -/
def logit (cs : EReal) (hit : BitVec 1) : EReal := Scalar.select hit (margin cs) cs * f32 0x41F00000#32

/-- The whole array of scaled logits, entry `(b, c)` from row `b` of the batch `x0`, row `c` of the weights `x2` and
    the label of `b` in `x1`: class `c` is sample `b`'s own when the word of `c` is its label word. -/
def Gfun (x0 : (⟨2, ![1024, 512]⟩ : Shape).Idx → EReal) (x1 : (⟨1, ![1024]⟩ : Shape).Idx → BitVec 32)
    (x2 : (⟨2, ![100000, 512]⟩ : Shape).Idx → EReal) : (⟨2, ![1024, 100000]⟩ : Shape).Idx → EReal := fun i =>
  logit (cosv (fun k => x0 (ValueIdx.ix2 (⟨(i 0).val, (i 0).isLt⟩ : Fin 1024) k))
      (fun k => x2 (ValueIdx.ix2 (⟨(i 1).val, (i 1).isLt⟩ : Fin 100000) k)))
    (IntOp.cmpi .eq (BitVec.ofNat 32 (i 1).val) (x1 (ValueIdx.ix1 (⟨(i 0).val, (i 0).isLt⟩ : Fin 1024))))

end Cert.Spec

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«171837_j70866960384684_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.IdealCell.lean ====
/-
  The kernel's block of scaled logits read at an entry.

  The body's stored value at row `b` and lane `j` of the block at grid point `i` depends on three things only:
  row `b` of the batch buffer, row `j` of the weight-rows buffer, and the label of row `b`. It is the scaled logit
  (`Spec.logit`) of the cosine of those two rows, the class being the sample's label exactly when the word
  `896 * i + j` equals the label word. In particular what the weight-rows buffer holds in OTHER rows — for the last
  block, the rows past the array's end — does not enter.
-/
import proofs.«171837_j70866960384684_1_alg».proof.Proof.Gen.KernelIdeal.Skeleton
import proofs.«171837_j70866960384684_1_alg».proof.Proof.Spec
import proofs.«171837_j70866960384684_1_alg».proof.Proof.LibBlockOps
import proofs.«171837_j70866960384684_1_alg».proof.Proof.LibColumn
import Idealize.ShloMosaic.Lib.ValueIdx
import Idealize.ShloMosaic.Lib.Pipeline.Value
import Idealize.ShloMosaic.PureOps.Ideal.Laws

noncomputable section

open scoped BigOperators

namespace Cert.KernelIdeal.Cell

open Cert.KernelIdeal Cert.KernelIdeal.Gen Cert.Spec
open Idealize.ShloMosaic Idealize.ShloMosaic.ValueIdx

/-- A row divided by its clamped norm, as the body spells it: the squares summed along the lanes, the sums set
    up as a column, its square root clamped from below, the column repeated along the lanes, the quotient. -/
theorem rowNormed {M : Nat} (X : FVec Ideal ⟨2, ![M, 512]⟩ .f32)
    (hr : (⟨2, ![M, 512]⟩ : Shape).Reduces [1] ⟨1, ![M]⟩) (hφ : FKind.Formats .f32)
    (hacc : (0x00000000#32 : BitVec (FTy.f32).bits) = FKind.add.neutral .f32 hφ)
    (hc : (⟨1, ![M]⟩ : Shape).ShapeCasts ⟨2, ![M, 1]⟩) (hb : (⟨2, ![M, 1]⟩ : Shape).Broadcasts ⟨2, ![M, 512]⟩)
    (p : Fin M) (k : Fin 512) :
    divf X (broadcastTo ⟨2, ![M, 512]⟩ (maximumf (sqrt (shapeCast ⟨2, ![M, 1]⟩
        (multiReduction .add [1] ⟨1, ![M]⟩ (mulf X X) 0x00000000#32 hr hφ hacc) hc))
        (broadcast ⟨2, ![M, 1]⟩ (Scalar.ofBits (F := Ideal) .f32 0x2B8CBCCC#32))) hb) (ix2 p k)
      = Ideal.div (X (ix2 p k)) (nrm fun k => X (ix2 p k)) := by
  rw [divf_apply, Cert.Lib.Column.colBroadcast_apply, maximumf_apply]
  show Ideal.div _ (max (Ideal.sqrt (shapeCast ⟨2, ![M, 1]⟩ _ hc (ix2 p (0 : Fin 1)))) _) = _
  rw [Cert.Lib.Column.col_apply, Cert.Lib.BlockOps.rowSum_apply]
  rfl

/-- The cosine block at `(b, j)`: the cosine of row `b` of the batch buffer and row `j` of the weight-rows buffer. -/
theorem pay2_apply (X0 : Vec Ideal S1024x512 .f32) (X1 : Vec Ideal S896x512 .f32) (b : Fin 1024) (j : Fin 896) :
    k0_pay2 (F := Ideal) X0 X1 (ix2 b j) = cosv (fun k => X0 (ix2 b k)) (fun k => X1 (ix2 j k)) := by
  unfold k0_pay2
  refine (Cert.Lib.BlockOps.matmul_rows_apply dot_S1024x512_S896x512_S1024x896_1_1_0_0_n_n_wf none _ _ b j).trans ?_
  refine Finset.sum_congr rfl fun k _ => ?_
  rw [truncf_apply, truncf_apply]
  exact congrArg₂ (· * ·) (rowNormed X0 _ _ _ _ _ b k) (rowNormed X1 _ _ _ _ _ j k)

/-- The margin branch at `(b, j)`. -/
theorem pay3_apply (X0 : Vec Ideal S1024x512 .f32) (X1 : Vec Ideal S896x512 .f32) (b : Fin 1024) (j : Fin 896) :
    k0_pay3 (F := Ideal) X0 X1 (ix2 b j) = margin (cosv (fun k => X0 (ix2 b k)) (fun k => X1 (ix2 j k))) := by
  unfold k0_pay3
  show margin (k0_pay2 (F := Ideal) X0 X1 (ix2 b j)) = _
  rw [pay2_apply]

/-- The stored block at `(b, j)`. -/
theorem out_apply (i : grid0.Coords) (X0 : Vec Ideal S1024x512 .f32) (X1 : Vec Ideal S896x512 .f32)
    (X2 : Vec Ideal S1024x1 .i32) (b : Fin 1024) (j : Fin 896) :
    k0_pay1 (F := Ideal) (k0_pay2 X0 X1) (k0_pay3 X0 X1) (iota .tc S1024x896 32 [1] iota_S1024x896_d1_w32) (k0_pay4 i) X2 (ix2 b j)
      = logit (cosv (fun k => X0 (ix2 b k)) (fun k => X1 (ix2 j k)))
          (IntOp.cmpi .eq (IntOp.addi (Scalar.muli (BitVec.ofNat 32 (i 0).val) 896#32) (BitVec.ofNat 32 j.val)) (X2 (ix2 b (0 : Fin 1)))) := by
  unfold k0_pay1
  have e45 : broadcastTo S1024x896 (shapeCast S1024x1 X2 shapeCasts_S1024x1_S1024x1) broadcasts_S1024x1_S1024x896 (ix2 b j)
      = X2 (ix2 b (0 : Fin 1)) := by
    rw [Cert.Lib.Column.colBroadcast_apply, shapeCast_self]
  have e40 : iota .tc S1024x896 32 [1] iota_S1024x896_d1_w32 (ix2 b j) = BitVec.ofNat 32 j.val :=
    iota_single_apply .tc S1024x896 32 1 iota_S1024x896_d1_w32 (ix2 b j)
  show Scalar.select (IntOp.cmpi .eq (IntOp.addi (k0_pay4 i (ix2 b j)) (iota .tc S1024x896 32 [1] iota_S1024x896_d1_w32 (ix2 b j)))
      (broadcastTo S1024x896 (shapeCast S1024x1 X2 shapeCasts_S1024x1_S1024x1) broadcasts_S1024x1_S1024x896 (ix2 b j)))
      (k0_pay3 (F := Ideal) X0 X1 (ix2 b j)) (k0_pay2 (F := Ideal) X0 X1 (ix2 b j)) * f32 0x41F00000#32 = _
  rw [e45, e40, pay3_apply, pay2_apply]
  rfl

/-- The word of the column `896 * t + j`, computed as the body does (the block's first column as a word, plus the
    lane number), is the word of that number. -/
theorem colWord (t j : Nat) :
    IntOp.addi (Scalar.muli (BitVec.ofNat 32 t) 896#32) (BitVec.ofNat 32 j) = BitVec.ofNat 32 (t * 896 + j) := by
  show BitVec.ofNat 32 t * 896#32 + BitVec.ofNat 32 j = _
  apply BitVec.eq_of_toNat_eq
  simp [BitVec.toNat_add, BitVec.toNat_mul, BitVec.toNat_ofNat, Nat.add_mod, Nat.mul_mod]

/-- THE ENTRY, JOINED: if row `b` of the batch buffer is row `b` of the batch `x0`, row `j` of the weight-rows buffer
    is row `cc` of the weights `x2` with `cc = 896 * i + j`, and the label buffer at `b` is the label `x1 b`, then the
    body's block at `(b, j)` is the whole array of scaled logits at `(b, cc)`. -/
theorem out_bridge (i : grid0.Coords) (X0 : Vec Ideal S1024x512 .f32) (X1 : Vec Ideal S896x512 .f32)
    (X2 : Vec Ideal S1024x1 .i32)
    (x0 : (⟨2, ![1024, 512]⟩ : Shape).Idx → EReal) (x1 : (⟨1, ![1024]⟩ : Shape).Idx → BitVec 32)
    (x2 : (⟨2, ![100000, 512]⟩ : Shape).Idx → EReal)
    (b : Fin 1024) (j : Fin 896) (cc : Fin 100000) (hcc : cc.val = (i 0).val * 896 + j.val)
    (h0 : ∀ k : Fin 512, X0 (ix2 b k) = x0 (ix2 b k)) (h1 : ∀ k : Fin 512, X1 (ix2 j k) = x2 (ix2 cc k))
    (h2 : X2 (ix2 b (0 : Fin 1)) = x1 (ix1 b)) :
    k0_pay1 (F := Ideal) (k0_pay2 X0 X1) (k0_pay3 X0 X1) (iota .tc S1024x896 32 [1] iota_S1024x896_d1_w32) (k0_pay4 i) X2 (ix2 b j)
      = Gfun x0 x1 x2 (ix2 b cc) := by
  rw [out_apply, colWord, ← hcc, h2, funext h0, funext h1]
  rfl

end Cert.KernelIdeal.Cell

end
-- ==== Proof.IdealValue.lean ====
/-
  The result array of the idealized kernel, in closed form.

  The grid's point `t` covers the classes `896 t … 896 t + 895`; the last point (`t = 111`) overhangs the 100000
  classes by 352, so its fetch of weight rows lands only the 544 rows inside the weight array (the other rows of the
  buffer hold whatever they held) and its write-back writes only the 544 columns inside the result array. An entry of
  the stored block depends on ONE row of the weight-rows buffer (`Cell.out_apply`), so on the columns written back the
  block is the whole array of scaled logits `G` read through the point's block, whatever the overhanging rows hold.
  The blocks written back cover the result array (class `c` lies in the block of point `c / 896`), so the array ends
  at `G`.
-/
import proofs.«171837_j70866960384684_1_alg».proof.Proof.KernelIdealBody
import proofs.«171837_j70866960384684_1_alg».proof.Proof.IdealCell
import proofs.«171837_j70866960384684_1_alg».proof.Proof.Spec
import proofs.«171837_j70866960384684_1_alg».proof.Proof.LibColumn
import Idealize.ShloMosaic.Lib.Pipeline.Frame
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Body Cert.KernelIdeal.Cell Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The whole array of scaled logits of the launch contents of the three arguments. -/
def G (c : Dev nD) : Buf (Elt Ideal) ((c : Thread nD τ).loc main_v1) :=
  Gfun (m ((c : Thread nD τ).loc main_arg0)) (m ((c : Thread nD τ).loc main_arg1)) (m ((c : Thread nD τ).loc main_arg2))

/-! ## The schedule's geometry, decided over the 112 points -/

theorem grid_facts : ∀ t : Fin cfg0.N,
    (grid0.coords t 0).val = t.val
    ∧ win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_1.xsize (grid0.coords t) (0 : Fin 2) = min 896 (100000 - t.val * 896)
    ∧ win0_1.xsize (grid0.coords t) (1 : Fin 2) = 512
    ∧ win0_3.xsize (grid0.coords t) (0 : Fin 2) = 1024
    ∧ win0_3.xsize (grid0.coords t) (1 : Fin 2) = min 896 (100000 - t.val * 896) :=
  (by decide +kernel : ∀ t : Fin grid0.N, _)

/-! ## The proof data -/

/-- After the body at point `t`: the batch's and the labels' buffers at their blocks; the weight rows' buffer at
    its block's rows inside the array (the rest is not stated: zero here); the result's buffer at the point's block
    of `G` on the columns inside the array (the rest not stated either). -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => iblk m c 2 t
    | ⟨3, _⟩ => win0_3.fill (grid0.coords t) (fun _ => (0 : EReal)) ((win0_3.blk t).view.read (Elt Ideal) (G m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => (0 : EReal)) (iblk m c 1 t) := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = win0_3.fill (grid0.coords t) (fun _ => (0 : EReal)) ((win0_3.blk t).view.read (Elt Ideal) (G m c)) := by
  dsimp only [dats]

/-- The batch's buffer holds its block at every point, -/
theorem before0_0 (c : Dev nD) (t : Fin cfg0.N) (d) : (dats m 0 c).before 0 t d = iblk m c 0 t :=
  before0_0_of m (dats m 0 c) (A_eq m c 0) (after0_0 m c) t d
/-- the labels' buffer its block, -/
theorem before0_2 (c : Dev nD) (t : Fin cfg0.N) (d) : (dats m 0 c).before 2 t d = iblk m c 2 t :=
  before0_2_of m (dats m 0 c) (A_eq m c 2) (after0_2 m c) t d
/-- the weight rows' buffer, fetched at every point, its block on the rows the fetch lands and `d` elsewhere, -/
theorem before0_1 (c : Dev nD) (t : Fin cfg0.N) (d) :
    (dats m 0 c).before 1 t d = win0_1.fill (grid0.coords t) d (iblk m c 1 t) := by
  rw [(dats m 0 c).before_fetched 1 t (fetch0_1 t)]
  unfold Dat.fetched Dat.blockOf iblk
  rw [A_eq]
/-- the result's buffer, written back at every point, anything. -/
theorem before0_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The label column as the region finds it -/

/-- The one host operation before the region views the label vector as a column. -/
theorem V_v0 (c : Dev nD) : (V m c main_v0 : S1024x1.Idx → BitVec 32)
    = shapeCast S1024x1 (m ((c : Thread nD τ).loc main_arg1)) shapeCasts_S1024_S1024x1 := by
  dsimp only [V, hostOps0]; after_results; rfl

/-! ## The block a point stores, on the columns written back -/

/-- On the columns the write-back at point `t` writes, the stored block is the point's block of `G`, whatever the
    weight-rows buffer held (`d1`) where the fetch did not land: column `j` of the block reads row `j` of the
    buffer only, and for a column inside the result array that row is inside the weight array (both are cut at
    the same class), hence landed. -/
theorem cut_out (c : Dev nD) (t : Fin cfg0.N) (d1 : S896x512.Idx → EReal) :
    win0_3.cut (grid0.coords t)
        (out3 (F := Ideal) (grid0.coords t) (iblk m c 0 t) (win0_1.fill (grid0.coords t) d1 (iblk m c 1 t)) (iblk m c 2 t))
      = (win0_3.blk t).view.read (Elt Ideal) (G m c) := by
  obtain ⟨g0, a00, a01, a10, a11, a20, a21, a30, a31, x10, x11, x30, x31⟩ := grid_facts t
  funext y
  have hy0 : (y 0).val < win0_3.xsize (grid0.coords t) (0 : Fin 2) := (y 0).isLt
  have hy1 : (y 1).val < win0_3.xsize (grid0.coords t) (1 : Fin 2) := (y 1).isLt
  rw [x30] at hy0
  rw [x31] at hy1
  have ht : t.val < 112 := lt_of_lt_of_eq t.isLt N_0
  obtain ⟨b, hb⟩ : ∃ b : Fin 1024, b.val = (y 0).val := ⟨⟨(y 0).val, hy0⟩, rfl⟩
  obtain ⟨j, hj⟩ : ∃ j : Fin 896, j.val = (y 1).val := ⟨⟨(y 1).val, by omega⟩, rfl⟩
  obtain ⟨cc, hcc⟩ : ∃ cc : Fin 100000, cc.val = t.val * 896 + (y 1).val := ⟨⟨t.val * 896 + (y 1).val, by omega⟩, rfl⟩
  have hx : win0_3.xinj (grid0.coords t) y = ix2 b j :=
    funext fun a => Fin.ext (by match a with | ⟨0, _⟩ => exact hb.symm | ⟨1, _⟩ => exact hj.symm)
  have he : (win0_3.blk t).view.emb y = ix2 b cc := by
    funext a; apply Fin.ext
    match a with
    | ⟨0, _⟩ => show win0_3.index t (0 : Fin 2) * 1024 + 1 * (y 0).val = b.val; omega
    | ⟨1, _⟩ => show win0_3.index t (1 : Fin 2) * 896 + 1 * (y 1).val = cc.val; omega
  show out3 (F := Ideal) (grid0.coords t) (iblk m c 0 t) (win0_1.fill (grid0.coords t) d1 (iblk m c 1 t)) (iblk m c 2 t)
      (win0_3.xinj (grid0.coords t) y) = G m c ((win0_3.blk t).view.emb y)
  rw [hx, he]
  unfold out3 G
  refine out_bridge (grid0.coords t) _ _ _ _ _ _ b j cc (by rw [g0, hcc, hj]) ?_ ?_ ?_
  · intro k
    show V m c main_arg0 ((win0_0.blk t).view.emb (ix2 b k)) = m ((c : Thread nD τ).loc main_arg0) (ix2 b k)
    rw [V_main_arg0]
    refine congrArg _ ?_
    funext a; apply Fin.ext
    match a with
    | ⟨0, _⟩ => show win0_0.index t (0 : Fin 2) * 1024 + 1 * b.val = b.val; omega
    | ⟨1, _⟩ => show win0_0.index t (1 : Fin 2) * 512 + 1 * k.val = k.val; omega
  · intro k
    have hj' : j.val < win0_1.xsize (grid0.coords t) (0 : Fin 2) := by rw [x10]; omega
    have hk' : k.val < win0_1.xsize (grid0.coords t) (1 : Fin 2) := by rw [x11]; exact k.isLt
    let y' : (win0_1.xblock (grid0.coords t)).Idx := fun a => match a with
      | ⟨0, _⟩ => ⟨j.val, hj'⟩
      | ⟨1, _⟩ => ⟨k.val, hk'⟩
    have hxi : ix2 j k = win0_1.xinj (grid0.coords t) y' :=
      funext fun a => Fin.ext (by match a with | ⟨0, _⟩ => rfl | ⟨1, _⟩ => rfl)
    rw [hxi, win0_1.fill_xinj]
    show V m c main_arg2 ((win0_1.blk t).view.emb y') = m ((c : Thread nD τ).loc main_arg2) (ix2 cc k)
    rw [V_main_arg2]
    refine congrArg _ ?_
    funext a; apply Fin.ext
    match a with
    | ⟨0, _⟩ => show win0_1.index t (0 : Fin 2) * 896 + 1 * j.val = cc.val; omega
    | ⟨1, _⟩ => show win0_1.index t (1 : Fin 2) * 512 + 1 * k.val = k.val; omega
  · show V m c main_v0 ((win0_2.blk t).view.emb (ix2 b (0 : Fin 1))) = m ((c : Thread nD τ).loc main_arg1) (ix1 b)
    have hemb : (win0_2.blk t).view.emb (ix2 b (0 : Fin 1)) = ix2 b (0 : Fin 1) := by
      funext a; apply Fin.ext
      match a with
      | ⟨0, _⟩ => show win0_2.index t (0 : Fin 2) * 1024 + 1 * b.val = b.val; omega
      | ⟨1, _⟩ => show win0_2.index t (1 : Fin 2) * 1 + 1 * 0 = 0; omega
    rw [hemb]
    exact (congrFun (V_v0 m c) (ix2 b (0 : Fin 1))).trans (Cert.Lib.Column.col_apply _ _ b)

/-! ## The body obligation -/

/-- At every point: the batch's and the labels' buffers arrive at their blocks, the weight rows' at its block filled
    out with anything, the result's at anything; the body (`sound_kernel`) leaves the first three as they were and the
    result's at the stored block, which on the columns written back is the block of `G` (`cut_out`) — all the
    obligation states of the two windows cut at the array's end. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0_0 m c t d0, before0_1 m c t d1, before0_2 m c t d2, before0_3 m c t d3]
  iapply (sound_kernel (F := Ideal) c Set.univ (grid0.coords t) _ _ _ _ _ _ _ _ (iblk m c 0 t)
    (win0_1.fill (grid0.coords t) d1 (iblk m c 1 t)) (iblk m c 2 t) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after0_0]; try iexact H0
  isplitl [H1]
  · iexists d1
    change _ ⊢ owns (c : Thread nD τ) (stage0_1 (cfg0.slots t 1)) fullShare
      (win0_1.fill (grid0.coords t) d1 (win0_1.cut (grid0.coords t) ((dats m 0 c).after 1 t)))
    rw [after0_1, win0_1.cut_fill]
    try iexact H1
  isplitl [H2]
  · rw [after0_2]; try iexact H2
  · iexists (out3 (F := Ideal) (grid0.coords t) (iblk m c 0 t) (win0_1.fill (grid0.coords t) d1 (iblk m c 1 t)) (iblk m c 2 t))
    change _ ⊢ owns (c : Thread nD τ) (stage0_3 (cfg0.slots t 3)) fullShare
      (win0_3.fill (grid0.coords t) _ (win0_3.cut (grid0.coords t) ((dats m 0 c).after 3 t)))
    rw [after0_3, win0_3.cut_fill, ← cut_out m c t d1, win0_3.fill_cut]
    try iexact H3

/-! ## The run -/

set_option backward.isDefEq.respectTransparency.types false in
/-- Every weakly fair execution of @main terminates, every array of the pipeline at what the write-backs of the
    proof data leave and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-! ## The result array after the run -/

/-- What point `t` writes back is its block of `G`. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  exact win0_3.cut_fill _ _ _

/-- An index of the result array is in point `t`'s block iff each coordinate is in the block's range on its axis,
    the range cut at the array's end. -/
theorem mem_blk (t : Fin cfg0.N) (i : S1024x100000.Idx) :
    i ∈ ((cfg0.win 3).blk t).view.set ↔ ∀ a : Fin 2, win0_3.index t a * S1024x896.size a ≤ (i a).val
      ∧ (i a).val < win0_3.index t a * S1024x896.size a + win0_3.xsize (grid0.coords t) a := by
  show i ∈ ((View.whole main_v1).slice (win0_3.rect t)).set ↔ _
  rw [View.set_slice_whole, Rect.mem_set_unit]
  exact Iff.rfl

/-- Class `c` lies in the block of point `c / 896`: the blocks written back cover the result array. -/
theorem cover (i : S1024x100000.Idx) :
    ∃ t : Fin cfg0.N, (cfg0.win 3).flush t = true ∧ i ∈ ((cfg0.win 3).blk t).view.set := by
  have hi0 : (i 0).val < 1024 := (i 0).isLt
  have hi1 : (i 1).val < 100000 := (i 1).isLt
  obtain ⟨t, ht⟩ : ∃ t : Fin cfg0.N, t.val = (i 1).val / 896 :=
    ⟨⟨(i 1).val / 896, by rw [show cfg0.N = 112 from N_0]; omega⟩, rfl⟩
  obtain ⟨g0, a00, a01, a10, a11, a20, a21, a30, a31, x10, x11, x30, x31⟩ := grid_facts t
  refine ⟨t, flush0_3 t, ?_⟩
  rw [mem_blk]
  intro a
  match a with
  | ⟨0, _⟩ =>
    show win0_3.index t (0 : Fin 2) * 1024 ≤ (i 0).val
      ∧ (i 0).val < win0_3.index t (0 : Fin 2) * 1024 + win0_3.xsize (grid0.coords t) (0 : Fin 2)
    rw [a30, x30]; omega
  | ⟨1, _⟩ =>
    show win0_3.index t (1 : Fin 2) * 896 ≤ (i 1).val
      ∧ (i 1).val < win0_3.index t (1 : Fin 2) * 896 + win0_3.xsize (grid0.coords t) (1 : Fin 2)
    rw [a31, x31]; omega

/-- The result array ends at `G`. -/
theorem final (c : Dev nD) : (dats m 0 c).arrAt 3 cfg0.N = G m c :=
  (dats m 0 c).arrAt_eq_of_cover 3 (G m c) (fun t _ => flushed_eq m c t) cover

/-- The idealized kernel's run, read: the result array at `G` of the launch contents, the arguments unchanged. -/
theorem run : θ_run defs (onTc (τ := τ) (main (F := Ideal))) ⟨m, fun _ => 0, ρ⟩ fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩) (run_main m ρ)

end Cert.KernelIdeal.Val

end
-- ==== Proof.RefCell.lean ====
/-
  The reference's result array is the whole array of scaled logits.

  Read one operation at a time, the reference normalises every row of the batch and of the weights by its clamped
  norm (a sum of squares started from the zero word, its square root, the maximum with the small constant, the
  quotient), contracts the two normalised arrays on their last axes — entry `(b, c)` is the cosine of row `b` of the
  batch and row `c` of the weights —, and applies the margin, the label select and the scale entry by entry, the
  class number of column `c` being the word of `c`. That is `Spec.Gfun`.
-/
import proofs.«171837_j70866960384684_1_alg».proof.Proof.Gen.ReferenceIdeal.Read
import proofs.«171837_j70866960384684_1_alg».proof.Proof.Spec
import Idealize.ShloMosaic.Lib.ValueIdx
import Idealize.ShloMosaic.PureOps.Ideal.Laws

noncomputable section

open scoped BigOperators

namespace Cert.ReferenceIdeal.RefCell

open Cert.ReferenceIdeal Cert.ReferenceIdeal.Read Cert.Spec
open Idealize.ShloMosaic Idealize.ShloMosaic.ValueIdx

/-- A batch row divided by its clamped norm. -/
theorem v7_eq (x0 : (⟨S1024x512, .f32⟩ : BufTy).Contents (Elt Ideal)) (b : Fin 1024) (k : Fin 512) :
    val_main_v7 (F := Ideal) x0 (ix2 b k) = Ideal.div (x0 (ix2 b k)) (nrm fun k => x0 (ix2 b k)) := by
  rw [val_main_v7_apply, val_main_v6_apply, val_main_v5_apply, val_main_v3_apply, val_main_v2_apply, val_main_v1_apply,
    val_main_v4_apply, val_main_cst_0_apply, val_main_cst_apply]
  simp only [val_main_v0_apply, Ideal.hostDivf_def, Ideal.maximumf_def, Ideal.hostUnary_sqrt_def, Ideal.ofBits_def,
    Ideal.mulf_def, Ideal.ofBits_zero_f32, zero_add]
  have e : ∀ k' : Fin 512, idx_main_v1 (idx_main_v2 (idx_main_v6 (ix2 b k))) k' = ix2 b k' := fun k' =>
    funext fun a => Fin.ext (by match a with | ⟨0, _⟩ => rfl | ⟨1, _⟩ => rfl)
  simp only [e]
  rfl

/-- A weight row divided by its clamped norm. -/
theorem v15_eq (x2 : (⟨S100000x512, .f32⟩ : BufTy).Contents (Elt Ideal)) (cc : Fin 100000) (k : Fin 512) :
    val_main_v15 (F := Ideal) x2 (ix2 cc k) = Ideal.div (x2 (ix2 cc k)) (nrm fun k => x2 (ix2 cc k)) := by
  rw [val_main_v15_apply, val_main_v14_apply, val_main_v13_apply, val_main_v11_apply, val_main_v10_apply, val_main_v9_apply,
    val_main_v12_apply, val_main_cst_2_apply, val_main_cst_1_apply]
  simp only [val_main_v8_apply, Ideal.hostDivf_def, Ideal.maximumf_def, Ideal.hostUnary_sqrt_def, Ideal.ofBits_def,
    Ideal.mulf_def, Ideal.ofBits_zero_f32, zero_add]
  have e : ∀ k' : Fin 512, idx_main_v9 (idx_main_v10 (idx_main_v14 (ix2 cc k))) k' = ix2 cc k' := fun k' =>
    funext fun a => Fin.ext (by match a with | ⟨0, _⟩ => rfl | ⟨1, _⟩ => rfl)
  simp only [e]
  rfl

/-- The contraction at `(b, cc)`: the cosine of the two rows. -/
theorem v16_eq (x0 : (⟨S1024x512, .f32⟩ : BufTy).Contents (Elt Ideal)) (x2 : (⟨S100000x512, .f32⟩ : BufTy).Contents (Elt Ideal))
    (b : Fin 1024) (cc : Fin 100000) :
    val_main_v16 (F := Ideal) x0 x2 (ix2 b cc) = cosv (fun k => x0 (ix2 b k)) (fun k => x2 (ix2 cc k)) := by
  rw [val_main_v16_apply]
  refine Finset.sum_congr rfl fun k _ => ?_
  have hl : lidx_main_v16 (ix2 b cc) k = ix2 b k :=
    funext fun a => Fin.ext (by match a with | ⟨0, _⟩ => rfl | ⟨1, _⟩ => rfl)
  have hr : ridx_main_v16 (ix2 b cc) k = ix2 cc k :=
    funext fun a => Fin.ext (by match a with | ⟨0, _⟩ => rfl | ⟨1, _⟩ => rfl)
  rw [hl, hr, v7_eq, v15_eq]

/-- The reference's last stage, entry by entry. -/
theorem v40_eq (x0 : (⟨S1024x512, .f32⟩ : BufTy).Contents (Elt Ideal)) (x1 : (⟨S1024, .i32⟩ : BufTy).Contents (Elt Ideal))
    (x2 : (⟨S100000x512, .f32⟩ : BufTy).Contents (Elt Ideal)) :
    val_main_v40 (F := Ideal) x0 x1 x2 = Gfun x0 x1 x2 := by
  funext i
  obtain ⟨b, cc, rfl⟩ : ∃ (b : Fin 1024) (cc : Fin 100000), i = ix2 b cc := ⟨i 0, i 1, eq_ix2 i⟩
  simp only [val_main_v40_apply, val_main_v39_apply, val_main_cst_10_apply, val_main_v38_apply, val_main_v37_apply,
    val_main_v36_apply, val_main_v35_apply, val_main_v34_apply, val_main_v33_apply, val_main_v32_apply, val_main_v31_apply,
    val_main_v30_apply, val_main_v29_apply, val_main_cst_9_apply, val_main_v28_apply, val_main_v27_apply, val_main_cst_8_apply,
    val_main_v26_apply, val_main_v25_apply, val_main_v24_apply, val_main_cst_7_apply, val_main_v23_apply, val_main_v22_apply,
    val_main_cst_6_apply, val_main_v21_apply, val_main_v20_apply, val_main_call0_v4_apply, val_main_call0_v3_apply,
    val_main_cst_5_apply, val_main_call0_v2_apply, val_main_call0_v1_apply, val_main_call0_v0_apply, val_main_cst_4_apply,
    val_main_v19_apply, val_main_v18_apply, val_main_cst_3_apply, val_main_v17_apply, v16_eq]
  have e : idx_main_v34 (idx_main_v36 (ix2 b cc)) = ix1 b :=
    funext fun a => Fin.ext (by match a with | ⟨0, _⟩ => rfl)
  rw [e]
  rfl

end Cert.ReferenceIdeal.RefCell

end
-- ==== Proof.lean ====
/-
  The proof of `Cert.Claim`: the three frames, the (empty) idealization ledger, and the equality of the idealized
  kernel's and the idealized reference's results on the extended reals.

  The kernel is a cosine classifier with an additive angular margin: each grid point normalises the batch rows and
  a block of 896 weight rows by their clamped norms, takes the rows' inner products, applies the margin at the
  sample's label and the scale, and stores the block; the reference does the same over the whole arrays. Entry
  `(b, c)` of either result is `Spec.logit` of the cosine of row `b` of the batch and row `c` of the weights
  (`Spec.Gfun`): the kernel's by reading its stored block at an entry and gathering the blocks written back
  (`KernelIdeal.Val.run`), the reference's by reading its operations one at a time (`RefCell.v40_eq`). The frames of
  the two kernel programs come from the body's run on arbitrary buffer contents (`Body.frame`); the reference's is
  its run with the result dropped.
-/
import proofs.«171837_j70866960384684_1_alg».proof.Defs
import proofs.«171837_j70866960384684_1_alg».proof.Proof.Gen.Kernel
import proofs.«171837_j70866960384684_1_alg».proof.Proof.Gen.KernelIdeal
import proofs.«171837_j70866960384684_1_alg».proof.Proof.Gen.ReferenceIdeal
import proofs.«171837_j70866960384684_1_alg».proof.Proof.Gen.Pre_finite_inputs
import proofs.«171837_j70866960384684_1_alg».proof.Proof.Gen.ReferenceIdeal.Run
import proofs.«171837_j70866960384684_1_alg».proof.Proof.Gen.ReferenceIdeal.Read
import proofs.«171837_j70866960384684_1_alg».proof.Proof.KernelBody
import proofs.«171837_j70866960384684_1_alg».proof.Proof.KernelIdealBody
import proofs.«171837_j70866960384684_1_alg».proof.Proof.IdealValue
import proofs.«171837_j70866960384684_1_alg».proof.Proof.RefCell
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the whole array of scaled logits of the (agreeing) arguments. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefCell.v40_eq, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
